-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x1024 .f32) (main_arg1 : FVec F S4096x1024 .f32) (main_arg2 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x4096 : Shape := ⟨2, ![16384, 4096]⟩
abbrev S2048x1024 : Shape := ⟨2, ![2048, 1024]⟩
abbrev S512x1024 : Shape := ⟨2, ![512, 1024]⟩
abbrev S2048x1 : Shape := ⟨2, ![2048, 1]⟩
abbrev S1x512 : Shape := ⟨2, ![1, 512]⟩
abbrev S2048x512 : Shape := ⟨2, ![2048, 512]⟩

abbrev nBuf : Space → Nat
  | .hbm => 23
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S1x4096, .f32⟩
  | .hbm, ⟨20, _⟩ => ⟨S16384x1024, .bf16⟩
  | .hbm, ⟨21, _⟩ => ⟨S4096x1024, .bf16⟩
  | .hbm, ⟨22, _⟩ => ⟨S16384x4096, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  shapeCasts_S4096_S1x4096 : S4096.ShapeCasts S1x4096
  bcast_S_S4096 : S_.BroadcastsInDim S4096 (![] : Fin 0 → Fin S4096.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x1024_S512x1024_S2048x512_1_1_0_0_n_n_wf : DotDims.WF S2048x1024 S512x1024 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S16384x4096.size a
  hwx0_5 : ∀ i : grid0.Coords, EltTy.bits .f32 = 32 ∨ (Rect.block (s := S16384x4096) S2048x512.size (cc0_transform_5 i) (hinb0_5 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf

abbrev win0_0 : Pipeline.Window sig grid0 :=
  Pipeline.Window.ofSpec (Memref.whole main_v13) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S1024x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S4096, .f32⟩
  | .hbm, ⟨24, _⟩ => ⟨S16384x4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  transposes_S4096x1024_S1024x4096_1_0 : S4096x1024.Transposes [1, 0] S1024x4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S_S4096 : S_.BroadcastsInDim S4096 (![] : Fin 0 → Fin S4096.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.RbfSpec.lean ====
/-
  The radial-basis layer as ONE function of its three argument arrays, entry by entry, on the extended reals.

  For a batch row `b` and a centre `o`, with `x_b` row `b` of `input`, `c_o` row `o` of `centers` and
  `s_o = log_sigma o`:

      out (b, o) = exp ( max (|x_b|² + |c_o|² - 2 · (x_b · c_o)) 0  ·  ((-1) / (2 · exp s_o · exp s_o)) )

  where `|r|² = 0 + Σ_k r_k · r_k` (a sum started from the zero word, as both programs start theirs) and
  `r · r' = Σ_k r_k · r'_k`, both over the 1024 features. The squared distance is spelt by its expansion
  `|x|² + |c|² - 2 x·c` in both programs, with the same grouping, so no law about the expansion is needed: the two programs
  differ only in how the clipped distance is scaled by the width (Proof/RbfLaw.lean states that law).
-/
import Idealize.ShloMosaic.PureOps.Ideal
import Idealize.ShloMosaic.Lib.ValueIdx

noncomputable section

open scoped BigOperators

namespace Cert.Rbf

open Idealize.ShloMosaic Idealize.ShloMosaic.ValueIdx

/-- The squared norm of a row of 1024 features: the zero word plus the sum of the squares. -/
def sqNorm (r : Fin 1024 → EReal) : EReal :=
  Ideal.ofBits .f32 0x00000000#32 + ∑ k : Fin 1024, r k * r k

/-- The inner product of two rows of 1024 features. -/
def inner (r r' : Fin 1024 → EReal) : EReal := ∑ k : Fin 1024, r k * r' k

/-- The scaling factor of a centre whose log-width is `s`: `(-1) / (2 · exp s · exp s)`. -/
def gamma (s : EReal) : EReal :=
  Ideal.div (Ideal.ofBits .f32 0xBF800000#32) (Ideal.ofBits .f32 0x40000000#32 * Ideal.exp s * Ideal.exp s)

/-- One entry from the two squared norms, the inner product and the scaling factor: the squared distance by its
    expansion, clipped at zero, scaled, exponentiated. -/
def entry (xsq csq cross g : EReal) : EReal :=
  Ideal.exp (max (xsq + csq - Ideal.ofBits .f32 0x40000000#32 * cross) (Ideal.ofBits .f32 0x00000000#32) * g)

/-- Entry `(b, o)` of the layer's output. -/
def rbfAt (x : (⟨2, ![16384, 1024]⟩ : Shape).Idx → EReal) (c : (⟨2, ![4096, 1024]⟩ : Shape).Idx → EReal)
    (ls : (⟨1, ![4096]⟩ : Shape).Idx → EReal) (b : Fin 16384) (o : Fin 4096) : EReal :=
  entry (sqNorm fun k => x (ix2 b k)) (sqNorm fun k => c (ix2 o k))
    (inner (fun k => x (ix2 b k)) (fun k => c (ix2 o k))) (gamma (ls (ix1 o)))

/-- THE LAYER: the output array as one function of the three argument arrays. -/
def rbf (x : (⟨2, ![16384, 1024]⟩ : Shape).Idx → EReal) (c : (⟨2, ![4096, 1024]⟩ : Shape).Idx → EReal)
    (ls : (⟨1, ![4096]⟩ : Shape).Idx → EReal) : (⟨2, ![16384, 4096]⟩ : Shape).Idx → EReal :=
  fun i => rbfAt x c ls (i 0) (i 1)

theorem rbf_apply (x : (⟨2, ![16384, 1024]⟩ : Shape).Idx → EReal) (c : (⟨2, ![4096, 1024]⟩ : Shape).Idx → EReal)
    (ls : (⟨1, ![4096]⟩ : Shape).Idx → EReal) (b : Fin 16384) (o : Fin 4096) :
    rbf x c ls (ix2 b o) = rbfAt x c ls b o := rfl

end Cert.Rbf

end
-- ==== Proof.KernelEntry.lean ====
/-
  What the kernel's body computes at ONE entry of its output block.

  At a grid point the body holds a block of 2048 batch rows and a block of 512 centres (each row with all 1024 features),
  the 2048 squared norms of the batch rows as a COLUMN [2048, 1], the 512 squared norms of the centres and their 512
  scaling factors as ROWS [1, 512]. Entry `(p, q)` of the [2048, 512] block it stores depends on row `p` of the first,
  row `q` of the second, entry `p` of the column and entry `q` of each row:
    · the matrix product contracts the feature axis of BOTH operands (rows times rows) into a zero accumulator, so its
      entry `(p, q)` is the inner product of row `p` and row `q`;
    · the column spread over the 512 lanes reads its entry `p` everywhere along a row, each row spread over the 2048
      sublanes reads its entry `q` everywhere down a column;
    · everything else is entrywise.
-/
import proofs.«172136_j13932873909049_2_alg».proof.Proof.Gen.KernelIdeal.Skeleton
import proofs.«172136_j13932873909049_2_alg».proof.Proof.RbfSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Entry

open Cert.KernelIdeal Cert.KernelIdeal.Gen Idealize.ShloMosaic Idealize.ShloMosaic.ValueIdx

/-- A column `[a, 1]` spread over `b` lanes reads, at `(p, c)`, the column's entry `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product's two operand indices at an output index and a contraction index, one coordinate at a time: the product
    keeps axis 0 of each operand (the batch row, the centre row) and contracts axis 1 of each (the feature). -/

theorem lhs_row (i : S2048x512.Idx) (r : dot_S2048x1024_S512x1024_S2048x512_1_1_0_0_n_n.contr.Idx) :
    (dot_S2048x1024_S512x1024_S2048x512_1_1_0_0_n_n.lhsIdx i r 0).val = (i 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl
theorem lhs_feature (i : S2048x512.Idx) (r : dot_S2048x1024_S512x1024_S2048x512_1_1_0_0_n_n.contr.Idx) :
    (dot_S2048x1024_S512x1024_S2048x512_1_1_0_0_n_n.lhsIdx i r 1).val = (r ⟨0, by decide⟩).val :=
  dot_S2048x1024_S512x1024_S2048x512_1_1_0_0_n_n.lhsIdx_val_of_single rfl i r
theorem rhs_row (i : S2048x512.Idx) (r : dot_S2048x1024_S512x1024_S2048x512_1_1_0_0_n_n.contr.Idx) :
    (dot_S2048x1024_S512x1024_S2048x512_1_1_0_0_n_n.rhsIdx i r 0).val = (i 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl
theorem rhs_feature (i : S2048x512.Idx) (r : dot_S2048x1024_S512x1024_S2048x512_1_1_0_0_n_n.contr.Idx) :
    (dot_S2048x1024_S512x1024_S2048x512_1_1_0_0_n_n.rhsIdx i r 1).val = (r ⟨0, by decide⟩).val :=
  dot_S2048x1024_S512x1024_S2048x512_1_1_0_0_n_n.rhsIdx_val_of_single rfl i r

/-- The matrix product into the zero accumulator, at `(p, q)`: the inner product of row `p` of the batch block and row
    `q` of the centre block. -/
theorem matmul_rows_apply (x0 : FVec Ideal S2048x1024 .bf16) (x1 : FVec Ideal S512x1024 .bf16) (p : Fin 2048) (q : Fin 512) :
    matmul dot_S2048x1024_S512x1024_S2048x512_1_1_0_0_n_n none x0 x1 (constant S2048x512 .f32 0x00000000#32) (ix2 p q)
      = Cert.Rbf.inner (fun k => x0 (ix2 p k)) (fun k => x1 (ix2 q k)) := by
  simp only [matmul]
  rw [Ideal.matmul_constant_zero_apply,
    ← Equiv.sum_comp (contrEquiv1 dot_S2048x1024_S512x1024_S2048x512_1_1_0_0_n_n 1024 rfl rfl).symm]
  unfold Cert.Rbf.inner
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 p q)
      ((contrEquiv1 dot_S2048x1024_S512x1024_S2048x512_1_1_0_0_n_n 1024 rfl rfl).symm k) = ix2 p k :=
    funext fun a => Fin.ext (by
      match a with
      | ⟨0, _⟩ => exact lhs_row _ _
      | ⟨1, _⟩ => exact (lhs_feature _ _).trans hk)
  have er : dot_S2048x1024_S512x1024_S2048x512_1_1_0_0_n_n.rhsIdx (ix2 p q)
      ((contrEquiv1 dot_S2048x1024_S512x1024_S2048x512_1_1_0_0_n_n 1024 rfl rfl).symm k) = ix2 q k :=
    funext fun a => Fin.ext (by
      match a with
      | ⟨0, _⟩ => exact rhs_row _ _
      | ⟨1, _⟩ => exact (rhs_feature _ _).trans hk)
  rw [el, er]

/-- THE BODY AT AN ENTRY: entry `(p, q)` of the stored block, from the loaded blocks. -/
theorem payload_apply (x0 : FVec Ideal S2048x1024 .bf16) (x1 : FVec Ideal S512x1024 .bf16) (x2 : FVec Ideal S2048x1 .f32)
    (x3 x4 : FVec Ideal S1x512 .f32) (p : Fin 2048) (q : Fin 512) :
    k0_pay1 (F := Ideal) x0 x1 x2 x3 x4 (ix2 p q)
      = Cert.Rbf.entry (x2 (ix2 p (0 : Fin 1))) (x3 (ix2 (0 : Fin 1) q))
          (Cert.Rbf.inner (fun k => x0 (ix2 p k)) (fun k => x1 (ix2 q k))) (x4 (ix2 (0 : Fin 1) q)) := by
  unfold k0_pay1 Cert.Rbf.entry
  simp only [shapeCast_self]
  show Ideal.exp (max (broadcastTo S2048x512 x2 _ (ix2 p q) + broadcastTo S2048x512 x3 _ (ix2 p q)
      - Ideal.ofBits .f32 0x40000000#32 * matmul dot_S2048x1024_S512x1024_S2048x512_1_1_0_0_n_n none x0 x1
          (constant S2048x512 .f32 0x00000000#32) (ix2 p q))
      (Ideal.ofBits .f32 0x00000000#32) * broadcastTo S2048x512 x4 _ (ix2 p q)) = _
  rw [broadcastTo_column_apply, broadcastTo_1b_ab_apply, broadcastTo_1b_ab_apply, matmul_rows_apply]

end Cert.KernelIdeal.Entry

end
-- ==== Proof.RegionArrays.lean ====
/-
  What the region finds in the five arrays its windows read.

  Before the call the host computes, from the three argument arrays:
    · the batch array and the centre array again, with a change of float format (the identity on extended reals);
    · the squared norm of every batch row as a column [16384, 1]: the host sum of the squares along the features, started
      from the zero word, then a unit axis added at the end;
    · the squared norm of every centre as a row [1, 4096]: the same sum for the centres, then a unit axis added in front;
    · the scaling factor of every centre as a row [1, 4096]: `(-1) / (2 · exp s · exp s)` of its log-width `s`, then a
      unit axis added in front.
  Each is read here at an entry, in the words of the layer's specification.
-/
import proofs.«172136_j13932873909049_2_alg».proof.Proof.Gen.KernelIdeal.Frame
import proofs.«172136_j13932873909049_2_alg».proof.Proof.RbfSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The host sum of a row's squares -/

/-- The host sum along the features of the squares of a [16384, 1024] array, at row `b`: the squared norm of the row. -/
theorem batchRowSq_apply (A : FVec Ideal S16384x1024 .f32) (b : Fin 16384) :
    Host.reduceAdd (F := Ideal) (mulf A A) (constant (F := Ideal) S_ .f32 0x00000000#32)
        reducesTo_S16384x1024_S16384_d1 h_S_ (ix1 b)
      = Cert.Rbf.sqNorm fun k => A (ix2 b k) := by
  generalize hy : mulf A A = y0
  simp only [Host.reduceAdd, Ideal.hostReduceAdd_def]
  rw [Ideal.hostReduceAdd_single reducesTo_S16384x1024_S16384_d1 (by decide)]
  unfold Cert.Rbf.sqNorm
  refine congrArg (Ideal.ofBits .f32 0x00000000#32 + ·) (Finset.sum_congr rfl fun k _ => ?_)
  subst hy
  exact congrArg (fun i => A i * A i) (funext fun a => Fin.ext (by match a with | ⟨0, _⟩ => rfl | ⟨1, _⟩ => rfl))

/-- The same for a [4096, 1024] array, at row `o`. -/
theorem centreRowSq_apply (A : FVec Ideal S4096x1024 .f32) (o : Fin 4096) :
    Host.reduceAdd (F := Ideal) (mulf A A) (constant (F := Ideal) S_ .f32 0x00000000#32)
        reducesTo_S4096x1024_S4096_d1 h_S_ (ix1 o)
      = Cert.Rbf.sqNorm fun k => A (ix2 o k) := by
  generalize hy : mulf A A = y0
  simp only [Host.reduceAdd, Ideal.hostReduceAdd_def]
  rw [Ideal.hostReduceAdd_single reducesTo_S4096x1024_S4096_d1 (by decide)]
  unfold Cert.Rbf.sqNorm
  refine congrArg (Ideal.ofBits .f32 0x00000000#32 + ·) (Finset.sum_congr rfl fun k _ => ?_)
  subst hy
  exact congrArg (fun i => A i * A i) (funext fun a => Fin.ext (by match a with | ⟨0, _⟩ => rfl | ⟨1, _⟩ => rfl))

/-! ## The five arrays -/

/-- The batch array in the narrower format is the batch array. -/
theorem batch_found (c : Dev nD) (i : S16384x1024.Idx) :
    V m c main_v13 i = m ((c : Thread nD τ).loc main_arg0) i := by
  have e : (V m c main_v13 : S16384x1024.Idx → EReal)
      = (truncf (F := Ideal) .bf16 (m ((c : Thread nD τ).loc main_arg0) : FVec Ideal S16384x1024 .f32) bitsLt_bf16_f32
          : FVec Ideal S16384x1024 .bf16) := by
    dsimp only [Gen.V, Gen.hostOps0]; after_results <;> rfl
  rw [e]; rfl

/-- The centre array in the narrower format is the centre array. -/
theorem centres_found (c : Dev nD) (i : S4096x1024.Idx) :
    V m c main_v14 i = m ((c : Thread nD τ).loc main_arg1) i := by
  have e : (V m c main_v14 : S4096x1024.Idx → EReal)
      = (truncf (F := Ideal) .bf16 (m ((c : Thread nD τ).loc main_arg1) : FVec Ideal S4096x1024 .f32) bitsLt_bf16_f32
          : FVec Ideal S4096x1024 .bf16) := by
    dsimp only [Gen.V, Gen.hostOps0]; after_results <;> rfl
  rw [e]; rfl

/-- The column of batch squared norms, at row `b`. -/
theorem batchSq_found (c : Dev nD) (b : Fin 16384) :
    V m c main_v2 (ix2 b (0 : Fin 1)) = Cert.Rbf.sqNorm fun k => m ((c : Thread nD τ).loc main_arg0) (ix2 b k) := by
  have e : (V m c main_v2 : S16384x1.Idx → EReal)
      = broadcastInDim S16384x1 ![0] bcast_S16384_S16384x1_0
          (Host.reduceAdd (F := Ideal) (mulf (m ((c : Thread nD τ).loc main_arg0)) (m ((c : Thread nD τ).loc main_arg0)))
            (constant (F := Ideal) S_ .f32 0x00000000#32) reducesTo_S16384x1024_S16384_d1 h_S_) := by
    dsimp only [Gen.V, Gen.hostOps0]; after_results <;> rfl
  rw [e]
  refine (broadcastInDim_apply _ bcast_S16384_S16384x1_0 _ (ix2 b (0 : Fin 1)) (ix1 b) (fun a => match a with
    | ⟨0, _⟩ => by show b.val = if (16384 : Nat) = 1 then 0 else b.val; rw [if_neg (by decide)])).trans ?_
  exact batchRowSq_apply _ b

/-- The row of centre squared norms, at centre `o`. -/
theorem centreSq_found (c : Dev nD) (o : Fin 4096) :
    V m c main_v5 (ix2 (0 : Fin 1) o) = Cert.Rbf.sqNorm fun k => m ((c : Thread nD τ).loc main_arg1) (ix2 o k) := by
  have e : (V m c main_v5 : S1x4096.Idx → EReal)
      = shapeCast S1x4096
          (Host.reduceAdd (F := Ideal) (mulf (m ((c : Thread nD τ).loc main_arg1)) (m ((c : Thread nD τ).loc main_arg1)))
            (constant (F := Ideal) S_ .f32 0x00000000#32) reducesTo_S4096x1024_S4096_d1 h_S_)
          shapeCasts_S4096_S1x4096 := by
    dsimp only [Gen.V, Gen.hostOps0]; after_results <;> rfl
  rw [e]
  refine (shapeCast_a_1a_apply _ shapeCasts_S4096_S1x4096 (0 : Fin 1) o).trans ?_
  exact centreRowSq_apply _ o

/-- The row of scaling factors, at centre `o`. -/
theorem gamma_found (c : Dev nD) (o : Fin 4096) :
    V m c main_v12 (ix2 (0 : Fin 1) o) = Cert.Rbf.gamma (m ((c : Thread nD τ).loc main_arg2) (ix1 o)) := by
  have e : (V m c main_v12 : S1x4096.Idx → EReal)
      = shapeCast S1x4096
          (Host.divf (F := Ideal) (broadcastInDim S4096 ![] bcast_S_S4096 (constant (F := Ideal) S_ .f32 0xBF800000#32))
            (mulf (mulf (broadcastInDim S4096 ![] bcast_S_S4096 (constant (F := Ideal) S_ .f32 0x40000000#32))
                (Host.exp (F := Ideal) (m ((c : Thread nD τ).loc main_arg2))))
              (Host.exp (F := Ideal) (m ((c : Thread nD τ).loc main_arg2)))))
          shapeCasts_S4096_S1x4096 := by
    dsimp only [Gen.V, Gen.hostOps0]; after_results <;> rfl
  rw [e]
  refine (shapeCast_a_1a_apply _ shapeCasts_S4096_S1x4096 (0 : Fin 1) o).trans ?_
  rfl

end Cert.KernelIdeal.Region

end
-- ==== Proof.KernelValue.lean ====
/-
  The kernel computes the layer: from the blocks each grid point writes back to the whole output array.

  The grid has 8 × 8 points. Point `(i, j)` reads batch rows `2048 i … 2048 i + 2047` (with their squared norms) and
  centres `512 j … 512 j + 511` (with their squared norms and scaling factors), and writes block `(i, j)` of the
  [16384, 4096] output: rows `2048 i + p`, columns `512 j + q`. So entry `(p, q)` of what it writes is the layer's entry
  `(2048 i + p, 512 j + q)`: the body's entry `(p, q)` depends on batch row `p` and centre `q` of the blocks, which are
  batch row `2048 i + p` and centre `512 j + q` of the arrays. The 64 blocks tile the output, so after the run the output
  array IS the layer of the three argument arrays.
-/
import proofs.«172136_j13932873909049_2_alg».proof.Proof.Gen.KernelIdeal.Value
import proofs.«172136_j13932873909049_2_alg».proof.Proof.KernelEntry
import proofs.«172136_j13932873909049_2_alg».proof.Proof.RegionArrays
import proofs.«172136_j13932873909049_2_alg».proof.Proof.RbfSpec
import Idealize.ShloMosaic.Lib.Pipeline.Value
import Idealize.ShloMosaic.Lib.ValueIdx

noncomputable section

open scoped BigOperators

namespace Cert.KernelIdeal.RbfValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The windows' block indices at a point, against the output's `(i, j)`: the batch windows follow `i`, the centre windows
    follow `j`, each with `0` on its other axis; and `i, j ≤ 7`. Decided over the 64 points. -/
theorem block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-! ## Each input block, read where the output's block says -/

/-- Row `p` of the batch block at a point is batch row `2048 i + p`. -/
theorem batch_block (c : Dev nD) (t : Fin cfg0.N) (p : Fin 2048) (k : Fin 1024) (b : Fin 16384)
    (hb : b.val = win0_5.index t (0 : Fin 2) * 2048 + p.val) :
    iblk m c 0 t (ix2 p k) = m ((c : Thread nD τ).loc main_arg0) (ix2 b k) := by
  show V m c main_v13 (((cfg0.win 0).blk t).view.emb (ix2 p k)) = _
  have e : ((cfg0.win 0).blk t).view.emb (ix2 p k) = ix2 b k := by
    obtain ⟨e0, e1, -⟩ := block_indices t
    funext a; apply Fin.ext
    match a with
    | ⟨0, _⟩ => show win0_0.index t (0 : Fin 2) * 2048 + 1 * p.val = b.val; omega
    | ⟨1, _⟩ => show win0_0.index t (1 : Fin 2) * 1024 + 1 * k.val = k.val; omega
  rw [e]
  exact Region.batch_found m c _

/-- Row `q` of the centre block at a point is centre `512 j + q`. -/
theorem centre_block (c : Dev nD) (t : Fin cfg0.N) (q : Fin 512) (k : Fin 1024) (o : Fin 4096)
    (ho : o.val = win0_5.index t (1 : Fin 2) * 512 + q.val) :
    iblk m c 1 t (ix2 q k) = m ((c : Thread nD τ).loc main_arg1) (ix2 o k) := by
  show V m c main_v14 (((cfg0.win 1).blk t).view.emb (ix2 q k)) = _
  have e : ((cfg0.win 1).blk t).view.emb (ix2 q k) = ix2 o k := by
    obtain ⟨-, -, e0, e1, -⟩ := block_indices t
    funext a; apply Fin.ext
    match a with
    | ⟨0, _⟩ => show win0_1.index t (0 : Fin 2) * 512 + 1 * q.val = o.val; omega
    | ⟨1, _⟩ => show win0_1.index t (1 : Fin 2) * 1024 + 1 * k.val = k.val; omega
  rw [e]
  exact Region.centres_found m c _

/-- Entry `p` of the column of squared norms at a point is the squared norm of batch row `2048 i + p`. -/
theorem batchSq_block (c : Dev nD) (t : Fin cfg0.N) (p : Fin 2048) (b : Fin 16384)
    (hb : b.val = win0_5.index t (0 : Fin 2) * 2048 + p.val) :
    iblk m c 2 t (ix2 p (0 : Fin 1)) = Cert.Rbf.sqNorm fun k => m ((c : Thread nD τ).loc main_arg0) (ix2 b k) := by
  show V m c main_v2 (((cfg0.win 2).blk t).view.emb (ix2 p (0 : Fin 1))) = _
  have e : ((cfg0.win 2).blk t).view.emb (ix2 p (0 : Fin 1)) = ix2 b (0 : Fin 1) := by
    obtain ⟨-, -, -, -, e0, e1, -⟩ := block_indices t
    funext a; apply Fin.ext
    match a with
    | ⟨0, _⟩ => show win0_2.index t (0 : Fin 2) * 2048 + 1 * p.val = b.val; omega
    | ⟨1, _⟩ => show win0_2.index t (1 : Fin 2) * 1 + 1 * 0 = 0; omega
  rw [e]
  exact Region.batchSq_found m c b

/-- Entry `q` of the row of squared norms at a point is the squared norm of centre `512 j + q`. -/
theorem centreSq_block (c : Dev nD) (t : Fin cfg0.N) (q : Fin 512) (o : Fin 4096)
    (ho : o.val = win0_5.index t (1 : Fin 2) * 512 + q.val) :
    iblk m c 3 t (ix2 (0 : Fin 1) q) = Cert.Rbf.sqNorm fun k => m ((c : Thread nD τ).loc main_arg1) (ix2 o k) := by
  show V m c main_v5 (((cfg0.win 3).blk t).view.emb (ix2 (0 : Fin 1) q)) = _
  have e : ((cfg0.win 3).blk t).view.emb (ix2 (0 : Fin 1) q) = ix2 (0 : Fin 1) o := by
    obtain ⟨-, -, -, -, -, -, e0, e1, -⟩ := block_indices t
    funext a; apply Fin.ext
    match a with
    | ⟨0, _⟩ => show win0_3.index t (0 : Fin 2) * 1 + 1 * 0 = 0; omega
    | ⟨1, _⟩ => show win0_3.index t (1 : Fin 2) * 512 + 1 * q.val = o.val; omega
  rw [e]
  exact Region.centreSq_found m c o

/-- Entry `q` of the row of scaling factors at a point is the scaling factor of centre `512 j + q`. -/
theorem gamma_block (c : Dev nD) (t : Fin cfg0.N) (q : Fin 512) (o : Fin 4096)
    (ho : o.val = win0_5.index t (1 : Fin 2) * 512 + q.val) :
    iblk m c 4 t (ix2 (0 : Fin 1) q) = Cert.Rbf.gamma (m ((c : Thread nD τ).loc main_arg2) (ix1 o)) := by
  show V m c main_v12 (((cfg0.win 4).blk t).view.emb (ix2 (0 : Fin 1) q)) = _
  have e : ((cfg0.win 4).blk t).view.emb (ix2 (0 : Fin 1) q) = ix2 (0 : Fin 1) o := by
    obtain ⟨-, -, -, -, -, -, -, -, e0, e1, -⟩ := block_indices t
    funext a; apply Fin.ext
    match a with
    | ⟨0, _⟩ => show win0_4.index t (0 : Fin 2) * 1 + 1 * 0 = 0; omega
    | ⟨1, _⟩ => show win0_4.index t (1 : Fin 2) * 512 + 1 * q.val = o.val; omega
  rw [e]
  exact Region.gamma_found m c o

/-! ## What a point writes back -/

/-- Entry `y` of the body's result at a point is the layer's entry at `y`'s place in the output array. -/
theorem point_entry (c : Dev nD) (t : Fin cfg0.N) (y : S2048x512.Idx) :
    k0_pay1 (F := Ideal) (iblk m c 0 t) (iblk m c 1 t) (iblk m c 2 t) (iblk m c 3 t) (iblk m c 4 t) y
      = Cert.Rbf.rbf (m ((c : Thread nD τ).loc main_arg0)) (m ((c : Thread nD τ).loc main_arg1))
          (m ((c : Thread nD τ).loc main_arg2)) (((cfg0.win 5).blk t).view.emb y) := by
  obtain ⟨p, q, rfl⟩ : ∃ (p : Fin 2048) (q : Fin 512), y = ix2 p q := ⟨y 0, y 1, eq_ix2 y⟩
  obtain ⟨-, -, -, -, -, -, -, -, -, -, hi, hj⟩ := block_indices t
  have hb : win0_5.index t (0 : Fin 2) * 2048 + p.val < 16384 := by have := p.isLt; omega
  have ho : win0_5.index t (1 : Fin 2) * 512 + q.val < 4096 := by have := q.isLt; omega
  have e : ((cfg0.win 5).blk t).view.emb (ix2 p q)
      = ix2 (⟨win0_5.index t (0 : Fin 2) * 2048 + p.val, hb⟩ : Fin 16384)
          (⟨win0_5.index t (1 : Fin 2) * 512 + q.val, ho⟩ : Fin 4096) := by
    funext a; apply Fin.ext
    match a with
    | ⟨0, _⟩ =>
      show win0_5.index t (0 : Fin 2) * 2048 + 1 * p.val = win0_5.index t (0 : Fin 2) * 2048 + p.val; omega
    | ⟨1, _⟩ =>
      show win0_5.index t (1 : Fin 2) * 512 + 1 * q.val = win0_5.index t (1 : Fin 2) * 512 + q.val; omega
  rw [e, Cert.Rbf.rbf_apply]
  refine (Entry.payload_apply (iblk m c 0 t) (iblk m c 1 t) (iblk m c 2 t) (iblk m c 3 t) (iblk m c 4 t) p q).trans ?_
  unfold Cert.Rbf.rbfAt
  have h0 : (fun k : Fin 1024 => iblk m c 0 t (ix2 p k))
      = fun k => m ((c : Thread nD τ).loc main_arg0) (ix2 (⟨_, hb⟩ : Fin 16384) k) :=
    funext fun k => batch_block m c t p k _ rfl
  have h1 : (fun k : Fin 1024 => iblk m c 1 t (ix2 q k))
      = fun k => m ((c : Thread nD τ).loc main_arg1) (ix2 (⟨_, ho⟩ : Fin 4096) k) :=
    funext fun k => centre_block m c t q k _ rfl
  rw [h0, h1, batchSq_block m c t p ⟨_, hb⟩ rfl, centreSq_block m c t q ⟨_, ho⟩ rfl, gamma_block m c t q ⟨_, ho⟩ rfl]

/-- WHAT POINT `t` WRITES BACK is block `t` of the layer of the argument arrays. -/
theorem flushed_eq (c : Dev nD) (t : Fin cfg0.N) :
    (dats m 0 c).flushed 5 t = ((cfg0.win 5).blk t).view.read (Elt Ideal)
      (Cert.Rbf.rbf (m ((c : Thread nD τ).loc main_arg0)) (m ((c : Thread nD τ).loc main_arg1))
        (m ((c : Thread nD τ).loc main_arg2))) := by
  rw [Value.flushed5]
  unfold out0_5
  rw [View.canon_unit_zero origin]
  simp only [View.ld_unit_zero (S := S2048x1024) origin, View.ld_unit_zero (S := S512x1024) origin,
    View.ld_unit_zero (S := S2048x1) origin, View.ld_unit_zero (S := S1x512) origin]
  funext j
  exact point_entry m c t j

/-! ## The blocks tile the output -/

/-- An index of the output is in point `t`'s block iff each coordinate is in the block's range on its axis. -/
theorem mem_block (t : Fin cfg0.N) (i : S16384x4096.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v15).slice (win0_5.rect t)).set ↔ _
  rw [View.set_slice_whole, Rect.mem_set_unit]
  exact Iff.rfl

/-- Every block of the 8 × 8 tiling is some point's. -/
theorem block_onto : ∀ (i : Fin 8) (j : Fin 8), ∃ t : Fin cfg0.N, win0_5.index t = ![i.val, j.val] :=
  (by decide +kernel : ∀ (i : Fin 8) (j : Fin 8), ∃ t : Fin grid0.N, win0_5.index t = ![i.val, j.val])

/-- Every index of the output is in the block of the point that owns its row band and its column band. -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ := block_onto ⟨(i 0).val / 2048, by omega⟩ ⟨(i 1).val / 512, by omega⟩
  have q0 : win0_5.index t (0 : Fin 2) = (i 0).val / 2048 := congrFun ht 0
  have q1 : win0_5.index t (1 : Fin 2) = (i 1).val / 512 := congrFun ht 1
  refine ⟨t, flush0_5 t, ?_⟩
  rw [mem_block]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 512 ≤ (i 1).val ∧ (i 1).val < win0_5.index t (1 : Fin 2) * 512 + 512
    omega

/-! ## The array after the run, and the run -/

/-- THE OUTPUT ARRAY after the run is the layer of the three argument arrays. -/
theorem final (c : Dev nD) :
    (dats m 0 c).arrAt 5 cfg0.N = Cert.Rbf.rbf (m ((c : Thread nD τ).loc main_arg0))
      (m ((c : Thread nD τ).loc main_arg1)) (m ((c : Thread nD τ).loc main_arg2)) :=
  (dats m 0 c).arrAt_eq_of_cover 5 _ (fun t _ => flushed_eq m c t) covered

/-- Every weakly fair execution of the kernel's program terminates with the output array at the layer of the argument
    arrays, and the argument arrays as they were. -/
theorem run : θ_run defs (onTc (τ := τ) (main (F := Ideal))) ⟨m, fun _ => 0, ρ⟩ fun r => ∀ c : Dev nD,
      r.2.mem ((c : Thread nD τ).loc main_v15) = Cert.Rbf.rbf (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RbfValue

end
-- ==== Proof.RbfLaw.lean ====
/-
  The one law that joins the two programs, on the extended reals.

  The kernel scales the clipped squared distance `d` by the precomputed factor `(-1) / (2 σ²)`; the reference divides
  `-d` by `2 σ²`, where `σ = exp s` and `s` is an entry of `log_sigma`. A division by a NONZERO divisor is the product
  with its inverse, so both are `-(d · (2 σ²)⁻¹)` by the sign laws of the product alone, whatever `d` is (also at the
  infinities). The divisor is nonzero exactly when `σ ≠ 0`, that is when `s ≠ -∞`: for a real `s` the width
  `2 · exp s · exp s` is a positive real. (At `s = -∞` the two sides do differ: `0 · ((-1)/0) = 0` against `(-0)/0`.)
-/
import Idealize.ShloMosaic.PureOps.Ideal

noncomputable section

namespace Cert.Rbf

open Idealize.ShloMosaic

/-- The word of `2.0` denotes the real `2`. -/
theorem ofBits_two : Ideal.ofBits .f32 0x40000000#32 = ((2 : ℝ) : EReal) := by
  simp [Ideal.ofBits, Ideal.ieee, -EReal.coe_mul]; norm_num

/-- The word of `-1.0` denotes the real `-1`. -/
theorem ofBits_negOne : Ideal.ofBits .f32 0xBF800000#32 = ((-1 : ℝ) : EReal) := by
  simp [Ideal.ofBits, Ideal.ieee, -EReal.coe_mul]; norm_num

/-- For a real `s` the width `2 · exp s · exp s` is the real `2 (exp s)²`. -/
theorem width_coe (s : ℝ) :
    Ideal.ofBits .f32 0x40000000#32 * Ideal.exp (s : EReal) * Ideal.exp (s : EReal)
      = ((2 * Real.exp s * Real.exp s : ℝ) : EReal) := by
  rw [ofBits_two, Ideal.exp_coe, EReal.coe_mul, EReal.coe_mul]

/-- … and that real is not zero. -/
theorem width_ne_zero (s : ℝ) : (2 * Real.exp s * Real.exp s : ℝ) ≠ 0 := by
  have := Real.exp_pos s
  positivity

/-- THE LAW: scaling `d` by `(-1) / w` is dividing `-d` by `w`, for the width `w = 2 · exp s · exp s` of a real `s`
    and every extended real `d`. -/
theorem scale_eq_div (d : EReal) (s : ℝ) :
    d * Ideal.div (Ideal.ofBits .f32 0xBF800000#32)
          (Ideal.ofBits .f32 0x40000000#32 * Ideal.exp (s : EReal) * Ideal.exp (s : EReal))
      = Ideal.div (-d) (Ideal.ofBits .f32 0x40000000#32 * Ideal.exp (s : EReal) * Ideal.exp (s : EReal)) := by
  rw [width_coe, Ideal.div_coe (width_ne_zero s), Ideal.div_coe (width_ne_zero s), ofBits_negOne,
    EReal.coe_neg, EReal.coe_one, neg_one_mul, mul_neg, neg_mul]

end Cert.Rbf

end
-- ==== Proof.RefValue.lean ====
/-
  The reference computes the layer.

  Read one operation at a time, entry `(b, o)` of the reference's result is
      exp ( (- max (|x_b|² + |c_o|² - 2 · (x_b · c_o)) 0) / (2 · exp s_o · exp s_o) ):
  the two squared norms are host sums started from the zero word and spread over the [16384, 4096] grid (the batch one
  through a unit column, the centre one through a unit row), the inner product is a product with the TRANSPOSED centres
  (contracting the features of the batch rows with the leading axis of the transpose, so again row `b` against row `o`),
  and the width `2 · exp s · exp s` is spread along the batch axis. Where every entry of `log_sigma` is a real number the
  division of the negated distance by the width is the distance scaled by `(-1) / width`: the layer.
-/
import proofs.«172136_j13932873909049_2_alg».proof.Proof.Gen.ReferenceIdeal.Read
import proofs.«172136_j13932873909049_2_alg».proof.Proof.RbfSpec
import proofs.«172136_j13932873909049_2_alg».proof.Proof.RbfLaw

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Where each stage reads its operand -/

/-- The batch squared norm spread to `(b, o)` sums row `b` of the squares. -/
theorem idx_batch (b : Fin 16384) (o : Fin 4096) (k : Fin 1024) :
    idx_main_v1 (idx_main_v2 (idx_main_v8 (ix2 b o))) k = ix2 b k :=
  funext fun a => Fin.ext (by match a with | ⟨0, _⟩ => rfl | ⟨1, _⟩ => rfl)

/-- The centre squared norm spread to `(b, o)` sums row `o` of the squares. -/
theorem idx_centre (b : Fin 16384) (o : Fin 4096) (k : Fin 1024) :
    idx_main_v4 (idx_main_v7 (idx_main_v9 (ix2 b o))) k = ix2 o k :=
  funext fun a => Fin.ext (by match a with | ⟨0, _⟩ => rfl | ⟨1, _⟩ => rfl)

/-- The product at `(b, o)` reads the batch array at `(b, k)` … -/
theorem idx_left (b : Fin 16384) (o : Fin 4096) (k : Fin 1024) : lidx_main_v6 (ix2 b o) k = ix2 b k :=
  funext fun a => Fin.ext (by match a with | ⟨0, _⟩ => rfl | ⟨1, _⟩ => rfl)

/-- … and the transposed centres at `(k, o)`, that is the centres at `(o, k)`. -/
theorem idx_right (b : Fin 16384) (o : Fin 4096) (k : Fin 1024) :
    idx_main_v5 (ridx_main_v6 (ix2 b o) k) = ix2 o k :=
  funext fun a => Fin.ext (by match a with | ⟨0, _⟩ => rfl | ⟨1, _⟩ => rfl)

/-- The width spread to `(b, o)` is the width of centre `o`. -/
theorem idx_width (b : Fin 16384) (o : Fin 4096) : idx_main_v21 (idx_main_v22 (ix2 b o)) = ix1 o :=
  funext fun a => Fin.ext (by match a with | ⟨0, _⟩ => rfl)

/-! ## The four ingredients at an entry -/

/-- The spread batch squared norm at `(b, o)`. -/
theorem batchSq_apply (x0 : (⟨S16384x1024, .f32⟩ : BufTy).Contents (Elt Ideal)) (b : Fin 16384) (o : Fin 4096) :
    val_main_v8 (F := Ideal) x0 (ix2 b o) = Cert.Rbf.sqNorm fun k => x0 (ix2 b k) := by
  rw [val_main_v8_apply, val_main_v2_apply, val_main_v1_apply]
  unfold Cert.Rbf.sqNorm
  refine congrArg (Ideal.ofBits .f32 0x00000000#32 + ·) (Finset.sum_congr rfl fun k _ => ?_)
  rw [val_main_v0_apply, idx_batch]
  rfl

/-- The spread centre squared norm at `(b, o)`. -/
theorem centreSq_apply (x1 : (⟨S4096x1024, .f32⟩ : BufTy).Contents (Elt Ideal)) (b : Fin 16384) (o : Fin 4096) :
    val_main_v9 (F := Ideal) x1 (ix2 b o) = Cert.Rbf.sqNorm fun k => x1 (ix2 o k) := by
  rw [val_main_v9_apply, val_main_v7_apply, val_main_v4_apply]
  unfold Cert.Rbf.sqNorm
  refine congrArg (Ideal.ofBits .f32 0x00000000#32 + ·) (Finset.sum_congr rfl fun k _ => ?_)
  rw [val_main_v3_apply, idx_centre]
  rfl

/-- The product with the transposed centres at `(b, o)`: the inner product of row `b` and row `o`. -/
theorem cross_apply (x0 : (⟨S16384x1024, .f32⟩ : BufTy).Contents (Elt Ideal)) (x1 : (⟨S4096x1024, .f32⟩ : BufTy).Contents (Elt Ideal))
    (b : Fin 16384) (o : Fin 4096) :
    val_main_v6 (F := Ideal) x0 x1 (ix2 b o) = Cert.Rbf.inner (fun k => x0 (ix2 b k)) (fun k => x1 (ix2 o k)) := by
  rw [val_main_v6_apply]
  unfold Cert.Rbf.inner
  refine Finset.sum_congr rfl fun k _ => ?_
  rw [val_main_v5_apply, idx_left, idx_right]

/-- The spread width at `(b, o)`: `2 · exp s_o · exp s_o`. -/
theorem width_apply (x2 : (⟨S4096, .f32⟩ : BufTy).Contents (Elt Ideal)) (b : Fin 16384) (o : Fin 4096) :
    val_main_v22 (F := Ideal) x2 (ix2 b o)
      = Ideal.ofBits .f32 0x40000000#32 * Ideal.exp (x2 (ix1 o)) * Ideal.exp (x2 (ix1 o)) := by
  rw [val_main_v22_apply, val_main_v21_apply, idx_width]
  rfl

/-! ## The reference's result is the layer -/

/-- For a `log_sigma` of real entries the reference's last stage is the layer, entry by entry. -/
theorem stage_eq_rbf (x0 : (⟨S16384x1024, .f32⟩ : BufTy).Contents (Elt Ideal)) (x1 : (⟨S4096x1024, .f32⟩ : BufTy).Contents (Elt Ideal))
    (x2 : (⟨S4096, .f32⟩ : BufTy).Contents (Elt Ideal)) (hreal : ∀ o : Fin 4096, ∃ s : ℝ, x2 (ix1 o) = (s : EReal)) :
    val_main_v24 (F := Ideal) x0 x1 x2 = Cert.Rbf.rbf x0 x1 x2 := by
  funext i
  obtain ⟨b, o, rfl⟩ : ∃ (b : Fin 16384) (o : Fin 4096), i = ix2 b o := ⟨i 0, i 1, eq_ix2 i⟩
  obtain ⟨s, hs⟩ := hreal o
  rw [Cert.Rbf.rbf_apply]
  unfold Cert.Rbf.rbfAt Cert.Rbf.entry Cert.Rbf.gamma
  rw [val_main_v24_apply, val_main_v23_apply, val_main_v17_apply, val_main_v15_apply, val_main_v13_apply,
    val_main_v10_apply, val_main_v12_apply, val_main_v11_apply, val_main_v14_apply, batchSq_apply, centreSq_apply,
    cross_apply, width_apply, hs]
  exact congrArg Ideal.exp (Cert.Rbf.scale_eq_div _ s).symm

end Cert.ReferenceIdeal.RefValue

end
-- ==== Proof.FiniteArg.lean ====
/-
  From the precondition to the one fact the proof uses: every entry of `log_sigma` is a real number.

  The precondition says, of each of the three argument arrays, that every entry's absolute value is below `+∞`; its
  three "for all entries" are conjoined into one bit. An extended real whose absolute value `max x (-x)` is below `+∞`
  is neither `+∞` nor `-∞` (the absolute value of both is `+∞`), so it is a real. Only the third array's conjunct is
  needed: a centre's width `2 · exp s · exp s` must not vanish, which is the case unless `s = -∞`.
-/
import proofs.«172136_j13932873909049_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Decode

open Cert.Pre_finite_inputs Idealize.ShloMosaic Idealize.ShloMosaic.ValueIdx

/-- The scalar shape has one index. -/
instance : Subsingleton S_.Idx := ⟨fun a b => funext fun d => d.elim0⟩

/-- The word of `+inf` denotes `+∞`. -/
theorem ofBits_inf : Ideal.ofBits .f32 0x7F800000#32 = ⊤ := by simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ s : ℝ, x = (s : EReal) := by
  rw [ofBits_inf] at h
  induction x using EReal.rec with
  | bot => exact absurd h (by simp [Ideal.cmp])
  | coe r => exact ⟨r, rfl⟩
  | top => exact absurd h (by simp [Ideal.cmp])

/-- Under the precondition every entry of the third argument array is a real number. -/
theorem logSigma_real (a0 : FVec Ideal S16384x1024 .f32) (a1 : FVec Ideal S4096x1024 .f32) (a2 : FVec Ideal S4096 .f32)
    (h : fn (F := Ideal) a0 a1 a2 = fun _ => 1#1) (o : Fin 4096) : ∃ s : ℝ, a2 (ix1 o) = (s : EReal) := by
  have h0 := congrFun h ix0
  dsimp only [fn] at h0
  obtain ⟨-, h2⟩ := IntOp.andi_eq_one.mp h0
  have he := Host.reduce_andi_all _ _ _ _ _ h2 (ix1 o)
  exact real_of_abs_lt _ he

end Cert.Pre_finite_inputs.Decode

end
-- ==== Proof.lean ====
/-
  A radial-basis layer: the kernel's program and its reference compute the same function on the extended reals.

  Both programs take `input` [16384, 1024], `centers` [4096, 1024] and `log_sigma` [4096], and return, for a batch row
  `b` and a centre `o`,
      exp ( - max (|x_b - c_o|², 0) / (2 σ_o²) ),      σ_o = exp (log_sigma o),
  with the squared distance spelt by its expansion `|x_b|² + |c_o|² - 2 x_b · c_o` (the same grouping in both).

  They differ in two places, and neither changes the value:
    · the kernel takes the inner products tile by tile, 8 × 8 tiles of [2048, 512] over the whole feature axis, on
      operands in a narrower float format; an exact extended real has no format, a tile's entry is the same sum of 1024
      products as the whole product's entry, and the tiles cover the output (Proof/KernelValue.lean over
      Proof/KernelEntry.lean and Proof/RegionArrays.lean);
    · the kernel multiplies the clipped distance by a factor `(-1) / (2 σ²)` computed once per centre, where the reference
      divides the negated distance by `2 σ²`. A division by a nonzero width is the product with its inverse, so the two
      agree by the sign laws of the product — provided the width is not zero, that is `log_sigma o ≠ -∞`
      (Proof/RbfLaw.lean). This is the one use of the precondition: every entry of `log_sigma` is finite, hence a real
      (Proof/FiniteArg.lean), and the reference's result is then the same function (Proof/RefValue.lean).
  The common function is `Cert.Rbf.rbf` (Proof/RbfSpec.lean).
-/
import proofs.«172136_j13932873909049_2_alg».proof.Defs
import proofs.«172136_j13932873909049_2_alg».proof.Proof.Gen.Kernel
import proofs.«172136_j13932873909049_2_alg».proof.Proof.Gen.Kernel.Skeleton
import proofs.«172136_j13932873909049_2_alg».proof.Proof.Gen.Kernel.Launch
import proofs.«172136_j13932873909049_2_alg».proof.Proof.Gen.Kernel.Points
import proofs.«172136_j13932873909049_2_alg».proof.Proof.Gen.Kernel.Frame
import proofs.«172136_j13932873909049_2_alg».proof.Proof.Gen.KernelIdeal
import proofs.«172136_j13932873909049_2_alg».proof.Proof.Gen.KernelIdeal.Skeleton
import proofs.«172136_j13932873909049_2_alg».proof.Proof.Gen.KernelIdeal.Launch
import proofs.«172136_j13932873909049_2_alg».proof.Proof.Gen.KernelIdeal.Points
import proofs.«172136_j13932873909049_2_alg».proof.Proof.Gen.KernelIdeal.Frame
import proofs.«172136_j13932873909049_2_alg».proof.Proof.Gen.ReferenceIdeal
import proofs.«172136_j13932873909049_2_alg».proof.Proof.Gen.Pre_finite_inputs
import proofs.«172136_j13932873909049_2_alg».proof.Proof.Gen.KernelIdeal.Value
import proofs.«172136_j13932873909049_2_alg».proof.Proof.Gen.ReferenceIdeal.Run
import proofs.«172136_j13932873909049_2_alg».proof.Proof.Gen.ReferenceIdeal.Read
import proofs.«172136_j13932873909049_2_alg».proof.Proof.KernelValue
import proofs.«172136_j13932873909049_2_alg».proof.Proof.RefValue
import proofs.«172136_j13932873909049_2_alg».proof.Proof.FiniteArg
import Idealize.ShloMosaic.Adequacy
import Idealize.ShloMosaic.Init

noncomputable section

namespace Cert.Proof

open Idealize.ShloMosaic Idealize.ShloMosaic.TcCoe Idealize.SL.Sem

/-- The kernel's program as printed runs, faults nowhere and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten to read it on the extended reals. -/
theorem preserves : Cert.preserves_Kernel_KernelIdeal := trivial

/-- From memories agreeing on the three arguments, both programs end with the layer `Cert.Rbf.rbf` of the arguments in
    their result: the kernel whatever the arguments are, the reference because `log_sigma` is finite. -/
theorem algebraic : Cert.algebraic_KernelIdeal_ReferenceIdeal := by
  intro m ρ m' ρ' hpre hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  exact Cert.ReferenceIdeal.RefValue.stage_eq_rbf _ _ _
    (fun o => Cert.Pre_finite_inputs.Decode.logSigma_real _ _ _ (hpre c) o)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
